-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32x128 : Shape := ⟨3, ![50000, 32, 128]⟩
abbrev S50000x32x32 : Shape := ⟨3, ![50000, 32, 32]⟩
abbrev S128x128 : Shape := ⟨2, ![128, 128]⟩
abbrev S128 : Shape := ⟨1, ![128]⟩
abbrev S128x32 : Shape := ⟨2, ![128, 32]⟩
abbrev S_ : Shape := ⟨0, ![]⟩

class Facts : Prop where
  bcast_S_S50000x32x128 : S_.BroadcastsInDim S50000x32x128 (![] : Fin 0 → Fin S50000x32x128.rank)
  reducesTo_S50000x32x128_S_d0_1_2 : S50000x32x128.ReducesTo [0, 1, 2] S_
  h_S_ : 0 < S_.numel
  bcast_S_S50000x32x32 : S_.BroadcastsInDim S50000x32x32 (![] : Fin 0 → Fin S50000x32x32.rank)
  reducesTo_S50000x32x32_S_d0_1_2 : S50000x32x32.ReducesTo [0, 1, 2] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x32 : S_.BroadcastsInDim S128x32 (![] : Fin 0 → Fin S128x32.rank)
  reducesTo_S128x32_S_d0_1 : S128x32.ReducesTo [0, 1] S_

variable [Facts]

def fn_part2 {F : FTy → Type} [FloatOps F] (main_arg7 : FVec F S128 .f32) (main_v33 : IVec S_ 1) : IVec S_ 1 :=
  let main_v34 : FVec F S128 .f32 := Host.absf main_arg7
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  main_v38

def fn_part1 {F : FTy → Type} [FloatOps F] (main_arg4 : FVec F S128x32 .f32) (main_arg5 : FVec F S128 .f32) (main_arg6 : FVec F S128x128 .f32) (main_arg7 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x32 .f32 := Host.absf main_arg4
  let main_cst_6 : FVec F S_ .f32 := constant S_ .f32 0x7F800000#32
  let main_v20 : FVec F S128x32 .f32 := broadcastInDim S128x32 ![] bcast_S_S128x32 main_cst_6
  let main_v21 : IVec S128x32 1 := cmpf .olt main_v19 main_v20
  let main_c_7 : IVec S_ 1 := constantI S_ 1 1#1
  let main_v22 : IVec S_ 1 := (fun x v => Host.reduce IntOp.andi x v reducesTo_S128x32_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg6
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg7 main_v33

def fn {F : FTy → Type} [FloatOps F] (main_arg0 : FVec F S50000x32x128 .f32) (main_arg1 : FVec F S50000x32x32 .f32) (main_arg2 : FVec F S128x128 .f32) (main_arg3 : FVec F S128 .f32) (main_arg4 : FVec F S128x32 .f32) (main_arg5 : FVec F S128 .f32) (main_arg6 : FVec F S128x128 .f32) (main_arg7 : FVec F S128 .f32) : IVec S_ 1 :=
  let main_v0 : FVec F S50000x32x128 .f32 := Host.absf main_arg0
  let main_cst : FVec F S_ .f32 := constant S_ .f32 0x7F800000#32
  let main_v1 : FVec F S50000x32x128 .f32 := broadcastInDim S50000x32x128 ![] bcast_S_S50000x32x128 main_cst
  let main_v2 : IVec S50000x32x128 1 := cmpf .olt main_v0 main_v1
  let main_c : IVec S_ 1 := constantI S_ 1 1#1
  let main_v3 : IVec S_ 1 := (fun x v => Host.reduce IntOp.andi x v reducesTo_S50000x32x128_S_d0_1_2 h_S_) main_v2 main_c
  let main_v4 : FVec F S50000x32x32 .f32 := Host.absf main_arg1
  let main_cst_0 : FVec F S_ .f32 := constant S_ .f32 0x7F800000#32
  let main_v5 : FVec F S50000x32x32 .f32 := broadcastInDim S50000x32x32 ![] bcast_S_S50000x32x32 main_cst_0
  let main_v6 : IVec S50000x32x32 1 := cmpf .olt main_v4 main_v5
  let main_c_1 : IVec S_ 1 := constantI S_ 1 1#1
  let main_v7 : IVec S_ 1 := (fun x v => Host.reduce IntOp.andi x v reducesTo_S50000x32x32_S_d0_1_2 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_arg6 main_arg7 main_v13 main_v16
-- ==== Kernel.lean ====
abbrev S50000x32x128 : Shape := ⟨3, ![50000, 32, 128]⟩
abbrev S50000x32x32 : Shape := ⟨3, ![50000, 32, 32]⟩
abbrev S128x128 : Shape := ⟨2, ![128, 128]⟩
abbrev S128 : Shape := ⟨1, ![128]⟩
abbrev S128x32 : Shape := ⟨2, ![128, 32]⟩
abbrev S1600000x128 : Shape := ⟨2, ![1600000, 128]⟩
abbrev S1600000x32 : Shape := ⟨2, ![1600000, 32]⟩
abbrev S32x128 : Shape := ⟨2, ![32, 128]⟩
abbrev S50000x128 : Shape := ⟨2, ![50000, 128]⟩
abbrev S12800x128 : Shape := ⟨2, ![12800, 128]⟩
abbrev S12800x32 : Shape := ⟨2, ![12800, 32]⟩
abbrev S400x128 : Shape := ⟨2, ![400, 128]⟩
abbrev S6400x128 : Shape := ⟨2, ![6400, 128]⟩
abbrev S6400x32 : Shape := ⟨2, ![6400, 32]⟩
abbrev S1x128 : Shape := ⟨2, ![1, 128]⟩
abbrev S200x32x128 : Shape := ⟨3, ![200, 32, 128]⟩
abbrev S200x128 : Shape := ⟨2, ![200, 128]⟩

abbrev nBuf : Space → Nat
  | .hbm => 17
  | .vmem => 12
  | .smem => 0
  | _ => 0

abbrev bufTy : (tb : Table) → Fin (tcTables nBuf tb) → BufTy
  | .hbm, ⟨0, _⟩ => ⟨S50000x32x128, .f32⟩
  | .hbm, ⟨1, _⟩ => ⟨S50000x32x32, .f32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S1600000x128, .f32⟩
  | .hbm, ⟨9, _⟩ => ⟨S1600000x32, .f32⟩
  | .hbm, ⟨10, _⟩ => ⟨S128x128, .f32⟩
  | .hbm, ⟨11, _⟩ => ⟨S128x128, .bf16⟩
  | .hbm, ⟨12, _⟩ => ⟨S32x128, .f32⟩
  | .hbm, ⟨13, _⟩ => ⟨S32x128, .bf16⟩
  | .hbm, ⟨14, _⟩ => ⟨S128x128, .f32⟩
  | .hbm, ⟨15, _⟩ => ⟨S128x128, .bf16⟩
  | .hbm, ⟨16, _⟩ => ⟨S50000x128, .f32⟩
  | .local _ .vmem, ⟨0, _⟩ => ⟨S12800x128, .f32⟩
  | .local _ .vmem, ⟨1, _⟩ => ⟨S12800x128, .f32⟩
  | .local _ .vmem, ⟨2, _⟩ => ⟨S12800x32, .f32⟩
  | .local _ .vmem, ⟨3, _⟩ => ⟨S12800x32, .f32⟩
  | .local _ .vmem, ⟨4, _⟩ => ⟨S128x128, .bf16⟩
  | .local _ .vmem, ⟨5, _⟩ => ⟨S128, .f32⟩
  | .local _ .vmem, ⟨6, _⟩ => ⟨S32x128, .bf16⟩
  | .local _ .vmem, ⟨7, _⟩ => ⟨S128, .f32⟩
  | .local _ .vmem, ⟨8, _⟩ => ⟨S128x128, .bf16⟩
  | .local _ .vmem, ⟨9, _⟩ => ⟨S128, .f32⟩
  | .local _ .vmem, ⟨10, _⟩ => ⟨S400x128, .f32⟩
  | .local _ .vmem, ⟨11, _⟩ => ⟨S400x128, .f32⟩
  | _, _ => ⟨S50000x32x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![125], ![false]⟩

def k0_mult1 : BitVec 32 :=
  let c0_i32 : BitVec 32 := 0#32
  let c6400_i32 : BitVec 32 := 6400#32
  let v9 : BitVec 32 := Scalar.muli c0_i32 c6400_i32
  v9
def k0_mult2 : BitVec 32 :=
  let c0_i32 : BitVec 32 := 0#32
  let c200_i32 : BitVec 32 := 200#32
  let v11 : BitVec 32 := Scalar.muli c0_i32 c200_i32
  v11
def k0_off1 (c0_i32 : BitVec 32) : Fin 2 → Nat :=
  let c6400_i32 : BitVec 32 := 6400#32
  let v9 : BitVec 32 := Scalar.muli c0_i32 c6400_i32
  let v10 : BitVec 32 := v9
  let v13 : Index := Scalar.indexCast v10
  let c0_8 : Index := 0#32
  ![v13.toNat, 0]
def k0_off2 (c0_i32 : BitVec 32) : Fin 2 → Nat :=
  let c6400_i32 : BitVec 32 := 6400#32
  let v9 : BitVec 32 := Scalar.muli c0_i32 c6400_i32
  let v10 : BitVec 32 := v9
  let v17 : Index := Scalar.indexCast v10
  let c0_9 : Index := 0#32
  ![v17.toNat, 0]
def k0_off3 (c0_i32 : BitVec 32) : Fin 2 → Nat :=
  let c200_i32 : BitVec 32 := 200#32
  let v11 : BitVec 32 := Scalar.muli c0_i32 c200_i32
  let v12 : BitVec 32 := v11
  let v38 : Index := Scalar.indexCast v12
  let c0_13 : Index := 0#32
  ![v38.toNat, 0]
def k0_mult3 : BitVec 32 :=
  let c1_i32 : BitVec 32 := 1#32
  let c6400_i32_14 : BitVec 32 := 6400#32
  let v40 : BitVec 32 := Scalar.muli c1_i32 c6400_i32_14
  v40
def k0_mult4 : BitVec 32 :=
  let c1_i32 : BitVec 32 := 1#32
  let c200_i32_15 : BitVec 32 := 200#32
  let v42 : BitVec 32 := Scalar.muli c1_i32 c200_i32_15
  v42
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S12800x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S12800x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S400x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S50000x32x128_S1600000x128 : S50000x32x128.ShapeCasts S1600000x128
  shapeCasts_S50000x32x32_S1600000x32 : S50000x32x32.ShapeCasts S1600000x32
  transposes_S128x128_S128x128_1_0 : S128x128.Transposes [1, 0] S128x128
  bitsLt_bf16_f32 : FTy.bits .bf16 < FTy.bits .f32
  transposes_S128x32_S32x128_1_0 : S128x32.Transposes [1, 0] S32x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S128_S128_0 : ∀ a, (![0] : Fin 1 → Nat) a + S128.size a ≤ S128.size a
  h_S128 : 0 < S128.numel
  inb_S32x128_S32x128_0_0 : ∀ a, (![0, 0] : Fin 2 → Nat) a + S32x128.size a ≤ S32x128.size a
  h_S32x128 : 0 < S32x128.numel
  shapeCasts_S32x128_S32x128 : S32x128.ShapeCasts S32x128
  h_S6400x128 : 0 < S6400x128.numel
  shapeCasts_S6400x128_S6400x128 : S6400x128.ShapeCasts S6400x128
  h_S6400x32 : 0 < S6400x32.numel
  shapeCasts_S6400x32_S6400x32 : S6400x32.ShapeCasts S6400x32
  shapeCasts_S128_S1x128 : S128.ShapeCasts S1x128
  broadcasts_S1x128_S6400x128 : S1x128.Broadcasts S6400x128
  shapeCasts_S6400x128_S200x32x128 : S6400x128.ShapeCasts S200x32x128
  reduces_S200x32x128_S200x128 : S200x32x128.Reduces [1] S200x128
  h_S200x128 : 0 < S200x128.numel
  dot_S6400x128_S128x128_S6400x128_1_0_0_1_n_n_wf : DotDims.WF S6400x128 S128x128 S6400x128 [1] [0] [0] [1] [] []
  dot_S6400x32_S32x128_S6400x128_1_0_0_1_n_n_wf : DotDims.WF S6400x32 S32x128 S6400x128 [1] [0] [0] [1] [] []
  hrank0 : 0 < grid0.rank
  k0_mult1_dvd : 6400 ∣ k0_mult1.toNat
  k0_mult2_dvd : 200 ∣ k0_mult2.toNat
  k0_off1_inb : ∀ (r : Fin 2), ∀ a, (k0_off1 (BitVec.ofNat 32 r.val)) a + S6400x128.size a ≤ S12800x128.size a
  k0_off2_inb : ∀ (r : Fin 2), ∀ a, (k0_off2 (BitVec.ofNat 32 r.val)) a + S6400x32.size a ≤ S12800x32.size a
  k0_off3_inb : ∀ (r : Fin 2), ∀ a, (k0_off3 (BitVec.ofNat 32 r.val)) a + S200x128.size a ≤ S400x128.size a
  k0_mult3_dvd : 6400 ∣ k0_mult3.toNat
  k0_mult4_dvd : 200 ∣ k0_mult4.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S12800x128.size a ≤ S1600000x128.size a
  hwx0_0 : ∀ i : grid0.Coords, EltTy.bits .f32 = 32 ∨ (Rect.block (s := S1600000x128) S12800x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S12800x32.size a ≤ S1600000x32.size a
  hwx0_1 : ∀ i : grid0.Coords, EltTy.bits .f32 = 32 ∨ (Rect.block (s := S1600000x32) S12800x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .bf16 = 32 ∨ (Rect.block (s := S128x128) S128x128.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x128.size a ≤ S32x128.size a
  hwx0_4 : ∀ i : grid0.Coords, EltTy.bits .bf16 = 32 ∨ (Rect.block (s := S32x128) S32x128.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .bf16 = 32 ∨ (Rect.block (s := S128x128) S128x128.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S128.size a ≤ S128.size a
  hwx0_7 : ∀ i : grid0.Coords, EltTy.bits .f32 = 32 ∨ (Rect.block (s := S128) S128.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S400x128.size a ≤ S50000x128.size a
  hwx0_8 : ∀ i : grid0.Coords, EltTy.bits .f32 = 32 ∨ (Rect.block (s := S50000x128) S400x128.size (cc0_transform_8 i) (hinb0_8 i)).WholeWords (EltTy.packing .f32)

variable [Facts₀]

def dot_S6400x128_S128x128_S6400x128_1_0_0_1_n_n : DotDims S6400x128 S128x128 S6400x128 where
  lhsContracting := [1]
  rhsContracting := [0]
  lhsNonContracting := [0]
  rhsNonContracting := [1]
  lhsBatch := []
  rhsBatch := []
  wf := dot_S6400x128_S128x128_S6400x128_1_0_0_1_n_n_wf
def dot_S6400x32_S32x128_S6400x128_1_0_0_1_n_n : DotDims S6400x32 S32x128 S6400x128 where
  lhsContracting := [1]
  rhsContracting := [0]
  lhsNonContracting := [0]
  rhsNonContracting := [1]
  lhsBatch := []
  rhsBatch := []
  wf := dot_S6400x32_S32x128_S6400x128_1_0_0_1_n_n_wf

abbrev win0_0 : Pipeline.Window sig grid0 :=
  Pipeline.Window.ofSpec (Memref.whole main_v0) S12800x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S12800x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v5) S32x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S128.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v8) S400x128.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S50000x32x128 : Shape := ⟨3, ![50000, 32, 128]⟩
abbrev S50000x32x32 : Shape := ⟨3, ![50000, 32, 32]⟩
abbrev S128x128 : Shape := ⟨2, ![128, 128]⟩
abbrev S128 : Shape := ⟨1, ![128]⟩
abbrev S128x32 : Shape := ⟨2, ![128, 32]⟩
abbrev S1x1x128 : Shape := ⟨3, ![1, 1, 128]⟩
abbrev S_ : Shape := ⟨0, ![]⟩
abbrev S50000x128 : Shape := ⟨2, ![50000, 128]⟩

abbrev nBuf : Space → Nat
  | .hbm => 24
  | .vmem => 0
  | .smem => 0
  | _ => 0

abbrev bufTy : (tb : Table) → Fin (tcTables nBuf tb) → BufTy
  | .hbm, ⟨0, _⟩ => ⟨S50000x32x128, .f32⟩
  | .hbm, ⟨1, _⟩ => ⟨S50000x32x32, .f32⟩
  | .hbm, ⟨2, _⟩ => ⟨S128x128, .f32⟩
  | .hbm, ⟨3, _⟩ => ⟨S128, .f32⟩
  | .hbm, ⟨4, _⟩ => ⟨S128x32, .f32⟩
  | .hbm, ⟨5, _⟩ => ⟨S128, .f32⟩
  | .hbm, ⟨6, _⟩ => ⟨S128x128, .f32⟩
  | .hbm, ⟨7, _⟩ => ⟨S128, .f32⟩
  | .hbm, ⟨8, _⟩ => ⟨S50000x32x128, .f32⟩
  | .hbm, ⟨9, _⟩ => ⟨S1x1x128, .f32⟩
  | .hbm, ⟨10, _⟩ => ⟨S50000x32x128, .f32⟩
  | .hbm, ⟨11, _⟩ => ⟨S50000x32x128, .f32⟩
  | .hbm, ⟨12, _⟩ => ⟨S50000x32x128, .f32⟩
  | .hbm, ⟨13, _⟩ => ⟨S1x1x128, .f32⟩
  | .hbm, ⟨14, _⟩ => ⟨S50000x32x128, .f32⟩
  | .hbm, ⟨15, _⟩ => ⟨S50000x32x128, .f32⟩
  | .hbm, ⟨16, _⟩ => ⟨S50000x32x128, .f32⟩
  | .hbm, ⟨17, _⟩ => ⟨S50000x32x128, .f32⟩
  | .hbm, ⟨18, _⟩ => ⟨S1x1x128, .f32⟩
  | .hbm, ⟨19, _⟩ => ⟨S50000x32x128, .f32⟩
  | .hbm, ⟨20, _⟩ => ⟨S50000x32x128, .f32⟩
  | .hbm, ⟨21, _⟩ => ⟨S50000x32x128, .f32⟩
  | .hbm, ⟨22, _⟩ => ⟨S_, .f32⟩
  | .hbm, ⟨23, _⟩ => ⟨S50000x128, .f32⟩
  | _, _ => ⟨S50000x32x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  bcast_S128_S1x1x128_2 : S128.BroadcastsInDim S1x1x128 (![2] : Fin 1 → Fin S1x1x128.rank)
  bcast_S1x1x128_S50000x32x128_0_1_2 : S1x1x128.BroadcastsInDim S50000x32x128 (![0, 1, 2] : Fin 3 → Fin S50000x32x128.rank)
  reducesTo_S50000x32x128_S50000x128_d1 : S50000x32x128.ReducesTo [1] S50000x128
  h_S_ : 0 < S_.numel
  dot_S50000x32x128_S128x128_S50000x32x128_2_1_01_0_n_n_wf : DotDims.WF S50000x32x128 S128x128 S50000x32x128 [2] [1] [0, 1] [0] [] []
  dot_S50000x32x32_S128x32_S50000x32x128_2_1_01_0_n_n_wf : DotDims.WF S50000x32x32 S128x32 S50000x32x128 [2] [1] [0, 1] [0] [] []

variable [Facts₀]

def dot_S50000x32x128_S128x128_S50000x32x128_2_1_01_0_n_n : DotDims S50000x32x128 S128x128 S50000x32x128 where
  lhsContracting := [2]
  rhsContracting := [1]
  lhsNonContracting := [0, 1]
  rhsNonContracting := [0]
  lhsBatch := []
  rhsBatch := []
  wf := dot_S50000x32x128_S128x128_S50000x32x128_2_1_01_0_n_n_wf
def dot_S50000x32x32_S128x32_S50000x32x128_2_1_01_0_n_n : DotDims S50000x32x32 S128x32 S50000x32x128 where
  lhsContracting := [2]
  rhsContracting := [1]
  lhsNonContracting := [0, 1]
  rhsNonContracting := [0]
  lhsBatch := []
  rhsBatch := []
  wf := dot_S50000x32x32_S128x32_S50000x32x128_2_1_01_0_n_n_wf

class Facts : Prop extends Facts₀ where

variable [Facts]
-- ==== Proof.Spec.lean ====
/-
  The function both programs compute, index by index, over the exact extended reals.

  A node `n` has 32 neighbour slots `k`. Slot `k` carries an atom row `s = src_h[n, k, :]` (128 entries) and a bond row
  `e = he[n, k, :]` (32 entries). Three affine maps act on the slot: `u h = (∑ a, s a · W1 h a) + b1 h` and
  `w h = (∑ b, e b · W2 h b) + b2 h` (128 hidden units `h` each), their entrywise product, and the output map
  `o ↦ (∑ h, (u h · w h) · W3 o h) + b3 o`, followed by `tanh`. The node's output at `o` is the sum of these 32
  slot values. No step needs finiteness: only sums, products and `tanh` of the same operands occur on both sides.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- Within a chunk of 200 nodes with 32 slots each, laid out slot-minor as 6400 rows: the row of node `p`, slot `k`. -/
abbrev slotRow (p : Fin 200) (k : Fin 32) : Fin 6400 := ⟨p.val * 32 + k.val, by have := p.isLt; have := k.isLt; omega⟩

/-- One neighbour slot's message at output channel `o`: `tanh((∑ h, u h · w h · W3 o h) + b3 o)` with
    `u h = (∑ a, s a · W1 h a) + b1 h` and `w h = (∑ b, e b · W2 h b) + b2 h`. -/
def message (s : Fin 128 → EReal) (e : Fin 32 → EReal)
    (W1 : Fin 128 → Fin 128 → EReal) (b1 : Fin 128 → EReal)
    (W2 : Fin 128 → Fin 32 → EReal) (b2 : Fin 128 → EReal)
    (W3 : Fin 128 → Fin 128 → EReal) (b3 : Fin 128 → EReal) (o : Fin 128) : EReal :=
  Ideal.tanh ((∑ h : Fin 128, (((∑ a : Fin 128, s a * W1 h a) + b1 h) * ((∑ b : Fin 32, e b * W2 h b) + b2 h)) * W3 o h) + b3 o)

/-- The pooled output: entry `(n, o)` is the sum over the 32 neighbour slots `k` of the slot's message at `o`. -/
def G (x0 : FVec Ideal ⟨3, ![50000, 32, 128]⟩ .f32) (x1 : FVec Ideal ⟨3, ![50000, 32, 32]⟩ .f32)
    (x2 : FVec Ideal ⟨2, ![128, 128]⟩ .f32) (x3 : FVec Ideal ⟨1, ![128]⟩ .f32)
    (x4 : FVec Ideal ⟨2, ![128, 32]⟩ .f32) (x5 : FVec Ideal ⟨1, ![128]⟩ .f32)
    (x6 : FVec Ideal ⟨2, ![128, 128]⟩ .f32) (x7 : FVec Ideal ⟨1, ![128]⟩ .f32) :
    FVec Ideal ⟨2, ![50000, 128]⟩ .f32 :=
  fun j => ∑ k : Fin 32, message (fun a => x0 (ix3 (j 0) k a)) (fun b => x1 (ix3 (j 0) k b))
    (fun h a => x2 (ix2 h a)) (fun h => x3 (ix1 h)) (fun h b => x4 (ix2 h b)) (fun h => x5 (ix1 h))
    (fun o h => x6 (ix2 o h)) (fun o => x7 (ix1 o)) (j 1)

end Cert.Spec

end
-- ==== Proof.LibMatmulNN.lean ====
/-
  A plain matrix product read at an index at the exact extended reals: a general lemma.

  With dimension numbers that contract axis 1 of an `[M, K]` left factor with axis 0 of a `[K, N]` right factor (no
  batch axes; the result `[M, N]`), and a zero accumulator, entry `(p, q)` of the product is the sum over `e` of
  `lhs (p, e) * rhs (e, q)`: row `p` of the left factor against column `q` of the right one.
-/
import Idealize.ShloMosaic.PureOps.Ideal
import Idealize.ShloMosaic.PureOps.Ideal.Laws
import Idealize.ShloMosaic.Lib.ValueIdx

noncomputable section

namespace Cert.LibMatmulNN

open Idealize.ShloMosaic Idealize.ShloMosaic.ValueIdx

variable {M N K : ℕ}

/-- The dimension numbers "rows against columns": contract axis 1 with axis 0, keep axis 0 of the left factor and
    axis 1 of the right one, no batch. -/
abbrev dims (wf : DotDims.WF (⟨2, ![M, K]⟩ : Shape) (⟨2, ![K, N]⟩ : Shape) (⟨2, ![M, N]⟩ : Shape) [1] [0] [0] [1] [] []) :
    DotDims (⟨2, ![M, K]⟩ : Shape) (⟨2, ![K, N]⟩ : Shape) (⟨2, ![M, N]⟩ : Shape) where
  lhsContracting := [1]
  rhsContracting := [0]
  lhsNonContracting := [0]
  rhsNonContracting := [1]
  lhsBatch := []
  rhsBatch := []
  wf := wf

variable (wf : DotDims.WF (⟨2, ![M, K]⟩ : Shape) (⟨2, ![K, N]⟩ : Shape) (⟨2, ![M, N]⟩ : Shape) [1] [0] [0] [1] [] [])

/-- The left index keeps the result's row coordinate on its row axis. -/
theorem lhsIdx_row (j : (⟨2, ![M, N]⟩ : Shape).Idx) (k : (dims wf).contr.Idx) :
    ((dims wf).lhsIdx j k 0).val = (j 0).val := by
  unfold DotDims.lhsIdx
  rw [dif_neg (show ¬(0 : Fin (⟨2, ![M, K]⟩ : Shape).rank) ∈ (dims wf).lhsBatch from List.not_mem_nil),
    dif_pos (show (0 : Fin (⟨2, ![M, K]⟩ : Shape).rank) ∈ (dims wf).lhsNonContracting from List.mem_singleton.mpr rfl)]
  rfl

/-- The right index keeps the result's column coordinate on its column axis. -/
theorem rhsIdx_col (j : (⟨2, ![M, N]⟩ : Shape).Idx) (k : (dims wf).contr.Idx) :
    ((dims wf).rhsIdx j k 1).val = (j 1).val := by
  unfold DotDims.rhsIdx
  rw [dif_neg (show ¬(1 : Fin (⟨2, ![K, N]⟩ : Shape).rank) ∈ (dims wf).rhsBatch from List.not_mem_nil),
    dif_pos (show (1 : Fin (⟨2, ![K, N]⟩ : Shape).rank) ∈ (dims wf).rhsNonContracting from List.mem_singleton.mpr rfl)]
  rfl

/-- The left index at result `(p, q)` and contraction position `e` is `(p, e)`. -/
theorem lhsIdx_eq (p : Fin M) (q : Fin N) (e : Fin K) :
    (dims wf).lhsIdx (ix2 p q) ((contrEquiv1 (dims wf) K rfl rfl).symm e) = ix2 p e := by
  have he := contrEquiv1_symm_val (dims wf) K rfl rfl e
  funext a
  apply Fin.ext
  match a with
  | ⟨0, _⟩ => exact lhsIdx_row wf _ _
  | ⟨1, _⟩ => exact ((dims wf).lhsIdx_val_of_single rfl _ _).trans he

/-- The right index at result `(p, q)` and contraction position `e` is `(e, q)`. -/
theorem rhsIdx_eq (p : Fin M) (q : Fin N) (e : Fin K) :
    (dims wf).rhsIdx (ix2 p q) ((contrEquiv1 (dims wf) K rfl rfl).symm e) = ix2 e q := by
  have he := contrEquiv1_symm_val (dims wf) K rfl rfl e
  funext a
  apply Fin.ext
  match a with
  | ⟨0, _⟩ => exact ((dims wf).rhsIdx_val_of_single rfl _ _).trans he
  | ⟨1, _⟩ => exact rhsIdx_col wf _ _

/-- Entry `(p, q)` of the product into a zero accumulator: row `p` of `lhs` against column `q` of `rhs`. -/
theorem matmul_zero_apply {φ₁ φ₂ : FTy} (prec : Option ContractPrecision)
    (lhs : FVec Ideal (⟨2, ![M, K]⟩ : Shape) φ₁) (rhs : FVec Ideal (⟨2, ![K, N]⟩ : Shape) φ₂) (p : Fin M) (q : Fin N) :
    FloatOps.matmul (dims wf) prec lhs rhs (constant (F := Ideal) (⟨2, ![M, N]⟩ : Shape) .f32 0x00000000#32) (ix2 p q)
      = ∑ e : Fin K, lhs (ix2 p e) * rhs (ix2 e q) := by
  rw [Ideal.matmul_constant_zero_apply, ← Equiv.sum_comp (contrEquiv1 (dims wf) K rfl rfl).symm]
  refine Finset.sum_congr rfl fun e _ => ?_
  rw [lhsIdx_eq wf p q e, rhsIdx_eq wf p q e]

end Cert.LibMatmulNN

end
-- ==== Proof.LibRank3Mid.lean ====
/-
  The sum along the middle axis of a rank-3 array, read at an index: a general lemma.

  At the exact extended reals a sum reduction of an `[a, b, c]` array over its middle axis leaves an `[a, c]` array
  whose entry `(p, r)` is the sum over `k` of the entries `(p, k, r)`: the column sums of each of the `a` matrices.
-/
import Idealize.ShloMosaic.PureOps.Ideal
import Idealize.ShloMosaic.PureOps.Ideal.Laws
import Idealize.ShloMosaic.Lib.ValueIdx

noncomputable section

namespace Cert.LibRank3Mid

open Idealize.ShloMosaic Idealize.ShloMosaic.ValueIdx

/-- The sum along the middle axis of a rank-3 array at the exact extended reals: at `(p, r)` the sum over `k` of
    entry `(p, k, r)`. -/
theorem sum_mid_apply {a b c : ℕ} (src : FVec Ideal ⟨3, ![a, b, c]⟩ .f32) (acc : BitVec 32)
    (h : (⟨3, ![a, b, c]⟩ : Shape).Reduces [1] ⟨2, ![a, c]⟩) (hφ : FKind.Formats .f32)
    (hacc : acc = FKind.add.neutral .f32 hφ) (p : Fin a) (r : Fin c) :
    multiReduction .add [1] ⟨2, ![a, c]⟩ src acc h hφ hacc (ix2 p r) = ∑ k : Fin b, src (ix3 p k r) := by
  refine (Ideal.multiReduction_add_single src acc h hφ hacc (ix2 p r)).trans ?_
  refine Finset.sum_congr rfl fun k _ => congrArg src (funext fun d => Fin.ext ?_)
  match d with
  | ⟨0, _⟩ => rfl
  | ⟨1, _⟩ => rfl
  | ⟨2, _⟩ => rfl

end Cert.LibRank3Mid

end
-- ==== Proof.LibBiasRow.lean ====
/-
  A bias vector laid along the rows, and a scalar spread over an array, read at an index: general lemmas.

  A vector `[b]` shape-cast to the row `[1, b]` keeps its entries in order, so the row at `(0, q)` is the vector at
  `q`; that row broadcast to `[a, b]` (a vector broadcast: trailing axes aligned, the unit axis repeated) reads, at
  `(p, q)`, the vector at `q` again. A rank-0 array broadcast to any shape reads its one entry everywhere.
-/
import Idealize.ShloMosaic.Lib.Pipeline.Value
import Idealize.ShloMosaic.Lib.ValueIdx

namespace BiasRead

open Idealize.ShloMosaic Idealize.ShloMosaic.ValueIdx

/-- A vector `[b]` shape-cast to the row `[1, b]` reads, at `(u, q)`, the vector at `q`. -/
theorem vector_as_row_apply {α : Type} {b : ℕ} (x : (⟨1, ![b]⟩ : Shape).Idx → α)
    (h : (⟨1, ![b]⟩ : Shape).ShapeCasts ⟨2, ![1, b]⟩) (u : Fin 1) (q : Fin b) :
    shapeCast ⟨2, ![1, b]⟩ x h (ix2 u q) = x (ix1 q) := by
  refine shapeCast_apply x h (ix2 u q) (ix1 q) ?_
  rw [Shape.rowMajor_val_one, Shape.rowMajor_val_two]
  show q.val = u.val * b + q.val
  have hu : u.val = 0 := by have := u.isLt; omega
  rw [hu, Nat.zero_mul, Nat.zero_add]

/-- A row `[1, b]` broadcast down to `[a, b]` (trailing axes aligned) reads, at `(p, q)`, the row at `(0, q)`. -/
theorem row_down_apply {α : Type} {a b : ℕ} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (0 : Fin 1) q) := by
  refine broadcastTo_apply v h (ix2 p q) (ix2 (0 : Fin 1) q) fun ax => ?_
  match ax with
  | ⟨0, _⟩ => rfl
  | ⟨1, _⟩ =>
    show q.val = if b = 1 then 0 else q.val
    split
    · have := q.isLt; omega
    · rfl

/-- A bias vector `[b]` made a row and broadcast down to `[a, b]` reads, at `(p, q)`, the vector at `q`. -/
theorem bias_rows_apply {α : Type} {a b : ℕ} (x : (⟨1, ![b]⟩ : Shape).Idx → α)
    (h₁ : (⟨1, ![b]⟩ : Shape).ShapeCasts ⟨2, ![1, b]⟩) (h₂ : (⟨2, ![1, b]⟩ : Shape).Broadcasts ⟨2, ![a, b]⟩)
    (p : Fin a) (q : Fin b) :
    broadcastTo ⟨2, ![a, b]⟩ (shapeCast ⟨2, ![1, b]⟩ x h₁) h₂ (ix2 p q) = x (ix1 q) :=
  (row_down_apply _ h₂ p q).trans (vector_as_row_apply x h₁ 0 q)

/-- A rank-0 array broadcast to any shape reads its one entry at every index. -/
theorem scalar_apply {α : Type} {t : Shape} (x : (⟨0, ![]⟩ : Shape).Idx → α)
    (h : (⟨0, ![]⟩ : Shape).BroadcastsInDim t ![]) (j : t.Idx) (k : (⟨0, ![]⟩ : Shape).Idx) :
    broadcastInDim t ![] h x j = x k :=
  broadcastInDim_apply ![] h x j k fun ax => ax.elim0

end BiasRead
-- ==== Proof.LibRank3Layout.lean ====
/-
  Rank-3 layout operations and lane reductions read at an index, over literal-size index constructors.

  A flat array of `a * b` rows viewed as `a` groups of `b` rows; the keep-dimension cast that appends a unit axis; the
  broadcast of that unit axis along the lanes; the broadcast of a leading unit axis over the groups; and, at the
  exact extended reals, the lane sum and the lane maximum of a rank-3 array and the row sum of a rank-2 array, each
  as a sum or a fold over `Fin` of the operand at the index with the reduced coordinate inserted.
-/
import Idealize.ShloMosaic.PureOps.Ideal
import Idealize.ShloMosaic.PureOps.Ideal.Laws
import Idealize.ShloMosaic.Lib.ValueIdx
import Idealize.ShloMosaic.Lib.Pipeline.Value

noncomputable section

namespace Cert.LibRank3

open Idealize.ShloMosaic Idealize.ShloMosaic.ValueIdx

variable {α : Type}

/-- `[n, d]` viewed `[a, b, d]` (so `n = a * b`): entry `(p, q, r)` is row `p * b + q`, column `r`. -/
theorem shapeCast_rows_apply {n a b d : ℕ} (x : (⟨2, ![n, d]⟩ : Shape).Idx → α)
    (h : (⟨2, ![n, d]⟩ : Shape).ShapeCasts ⟨3, ![a, b, d]⟩) (p : Fin a) (q : Fin b) (r : Fin d)
    (hpq : p.val * b + q.val < n) :
    shapeCast ⟨3, ![a, b, d]⟩ x h (ix3 p q r) = x (ix2 ⟨p.val * b + q.val, hpq⟩ r) := by
  refine shapeCast_apply x h _ _ ?_
  rw [Shape.rowMajor_val_two, Shape.rowMajor_val_three]
  rfl

/-- `[a, b]` viewed `[a, b, 1]`: entry `(p, q, 0)` is entry `(p, q)`. -/
theorem shapeCast_keepdim_apply {a b : ℕ} (x : (⟨2, ![a, b]⟩ : Shape).Idx → α)
    (h : (⟨2, ![a, b]⟩ : Shape).ShapeCasts ⟨3, ![a, b, 1]⟩) (p : Fin a) (q : Fin b) (z : Fin 1) :
    shapeCast ⟨3, ![a, b, 1]⟩ x h (ix3 p q z) = x (ix2 p q) := by
  refine shapeCast_apply x h _ _ ?_
  rw [Shape.rowMajor_val_two, Shape.rowMajor_val_three]
  show p.val * b + q.val = (p.val * b + q.val) * 1 + z.val
  have := z.isLt
  omega

/-- `[a, b, 1]` broadcast along the lanes to `[a, b, c]`: entry `(p, q, r)` is entry `(p, q, 0)`. -/
theorem broadcastTo_lane_apply {a b c : ℕ} (x : (⟨3, ![a, b, 1]⟩ : Shape).Idx → α)
    (h : (⟨3, ![a, b, 1]⟩ : Shape).Broadcasts ⟨3, ![a, b, c]⟩) (p : Fin a) (q : Fin b) (r : Fin c) :
    broadcastTo ⟨3, ![a, b, c]⟩ x h (ix3 p q r) = x (ix3 p q ⟨0, Nat.one_pos⟩) := by
  refine broadcastTo_apply x h _ _ fun d => ?_
  match d with
  | ⟨0, _⟩ =>
    show p.val = if a = 1 then 0 else p.val
    split_ifs with h1
    · have := p.isLt; omega
    · rfl
  | ⟨1, _⟩ =>
    show q.val = if b = 1 then 0 else q.val
    split_ifs with h1
    · have := q.isLt; omega
    · rfl
  | ⟨2, _⟩ =>
    show (0 : ℕ) = if (1 : ℕ) = 1 then 0 else r.val
    rw [if_pos rfl]

/-- `[1, b, c]` broadcast over the groups to `[a, b, c]`: entry `(p, q, r)` is entry `(0, q, r)`. -/
theorem broadcastTo_group_apply {a b c : ℕ} (x : (⟨3, ![1, b, c]⟩ : Shape).Idx → α)
    (h : (⟨3, ![1, b, c]⟩ : Shape).Broadcasts ⟨3, ![a, b, c]⟩) (p : Fin a) (q : Fin b) (r : Fin c) :
    broadcastTo ⟨3, ![a, b, c]⟩ x h (ix3 p q r) = x (ix3 ⟨0, Nat.one_pos⟩ q r) := by
  refine broadcastTo_apply x h _ _ fun d => ?_
  match d with
  | ⟨0, _⟩ =>
    show (0 : ℕ) = if (1 : ℕ) = 1 then 0 else p.val
    rw [if_pos rfl]
  | ⟨1, _⟩ =>
    show q.val = if b = 1 then 0 else q.val
    split_ifs with h1
    · have := q.isLt; omega
    · rfl
  | ⟨2, _⟩ =>
    show r.val = if c = 1 then 0 else r.val
    split_ifs with h1
    · have := r.isLt; omega
    · rfl

/-- The lane sum of a rank-3 array at the exact extended reals: at `(p, q)` the sum over `k` of entry `(p, q, k)`. -/
theorem sum_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.add.neutral .f32 hφ) (p : Fin a) (q : Fin b) :
    multiReduction .add [2] ⟨2, ![a, b]⟩ src acc h hφ hacc (ix2 p q) = ∑ k : Fin c, src (ix3 p q k) := by
  refine (Ideal.multiReduction_add_single src acc h hφ hacc (ix2 p q)).trans ?_
  refine Finset.sum_congr rfl fun k _ => congrArg src (funext fun d => Fin.ext ?_)
  match d with
  | ⟨0, _⟩ => rfl
  | ⟨1, _⟩ => rfl
  | ⟨2, _⟩ => rfl

/-- The lane maximum of a rank-3 array at the exact extended reals: at `(p, q)` the fold of `max`, from the value of the
    starting pattern, over `k` of entry `(p, q, k)`. -/
theorem max_lane_apply {a b c : ℕ} (src : FVec Ideal ⟨3, ![a, b, c]⟩ .f32) (acc : BitVec 32)
    (h : (⟨3, ![a, b, c]⟩ : Shape).Reduces [2] ⟨2, ![a, b]⟩) (hφ : FKind.Formats .f32)
    (hacc : acc = FKind.maximumf.neutral .f32 hφ) (p : Fin a) (q : Fin b) :
    multiReduction .maximumf [2] ⟨2, ![a, b]⟩ src acc h hφ hacc (ix2 p q)
      = (Finset.univ : Finset (Fin c)).fold max (Ideal.ofBits .f32 acc) (fun k => src (ix3 p q k)) := by
  refine (Ideal.multiReduction_maximumf_single src acc h hφ hacc (ix2 p q)).trans ?_
  refine congrArg (Finset.fold max (Ideal.ofBits .f32 acc) · Finset.univ) (funext fun k => congrArg src (funext fun d => Fin.ext ?_))
  match d with
  | ⟨0, _⟩ => rfl
  | ⟨1, _⟩ => rfl
  | ⟨2, _⟩ => rfl

/-- The row sum of a rank-2 array at the exact extended reals: at `p` the sum over `k` of entry `(p, k)`. -/
theorem sum_row_apply {a b : ℕ} (src : FVec Ideal ⟨2, ![a, b]⟩ .f32) (acc : BitVec 32)
    (h : (⟨2, ![a, b]⟩ : Shape).Reduces [1] ⟨1, ![a]⟩) (hφ : FKind.Formats .f32)
    (hacc : acc = FKind.add.neutral .f32 hφ) (p : Fin a) :
    multiReduction .add [1] ⟨1, ![a]⟩ src acc h hφ hacc (ix1 p) = ∑ k : Fin b, src (ix2 p k) := by
  refine (Ideal.multiReduction_add_single src acc h hφ hacc (ix1 p)).trans ?_
  refine Finset.sum_congr rfl fun k _ => congrArg src (funext fun d => Fin.ext ?_)
  match d with
  | ⟨0, _⟩ => rfl
  | ⟨1, _⟩ => rfl

end Cert.LibRank3

end
-- ==== Proof.Chunk.lean ====
/-
  One chunk of 200 nodes, read at an index, over the exact extended reals.

  A chunk is 6400 rows, slot-minor: row `p · 32 + k` is slot `k` of node `p`. On each row the atom entries (128) and
  the bond entries (32) pass through two affine layers into 128 hidden units, `u h = (∑ a, s a · W1 h a) + b1 h` and
  `w h = (∑ b, e b · W2 h b) + b2 h`; the entrywise product `u h · w h` passes through the output affine layer and
  `tanh`; the 32 rows of a node are then summed. The weight matrices arrive transposed (inputs along the rows, units
  along the columns), so each layer is a plain matrix product of the rows against the matrix, into a zero
  accumulator, plus a bias vector laid along every row. At the exact extended reals the narrowing format changes
  and the casts of an array to its own shape are identities, so nothing but these sums, products and `tanh` remains.

  The two theorems say: entry `(p, o)` of a chunk's pooled result is the sum over the 32 slots `k` of the slot's
  message at channel `o`, the message being taken on row `p · 32 + k` of the chunk's atom and bond rows. The second
  chunk is read directly; the first is the same term with its weights first cast to their own shapes.
-/
import proofs.«175420_j43078521979616_2_alg».proof.Proof.Gen.KernelIdeal.Skeleton
import proofs.«175420_j43078521979616_2_alg».proof.Proof.Spec
import proofs.«175420_j43078521979616_2_alg».proof.Proof.LibMatmulNN
import proofs.«175420_j43078521979616_2_alg».proof.Proof.LibRank3Mid
import proofs.«175420_j43078521979616_2_alg».proof.Proof.LibBiasRow
import proofs.«175420_j43078521979616_2_alg».proof.Proof.LibRank3Layout

noncomputable section

namespace Cert.Chunk

open Cert.KernelIdeal Cert.KernelIdeal.Gen Idealize.ShloMosaic Idealize.ShloMosaic.ValueIdx

/-- An affine layer with 128 inputs, at row `r` and unit `h`: the rows `x` times the weight matrix `w` (inputs along
    its rows, units along its columns) into a zero accumulator, plus the bias vector `b` laid along every row, is
    `(∑ a, x (r, a) · w (a, h)) + b h`. -/
theorem affine128_apply (x : FVec Ideal S6400x128 .bf16) (w : FVec Ideal S128x128 .bf16) (b : FVec Ideal S128 .f32)
    (r : Fin 6400) (h : Fin 128) :
    addf (matmul dot_S6400x128_S128x128_S6400x128_1_0_0_1_n_n none x w (constant (F := Ideal) S6400x128 .f32 0x00000000#32))
        (broadcastTo S6400x128 (shapeCast S1x128 b shapeCasts_S128_S1x128) broadcasts_S1x128_S6400x128) (ix2 r h)
      = (∑ a : Fin 128, x (ix2 r a) * w (ix2 a h)) + b (ix1 h) := by
  refine (addf_apply _ _ _).trans ?_
  exact congrArg₂ (· + ·)
    (Cert.LibMatmulNN.matmul_zero_apply dot_S6400x128_S128x128_S6400x128_1_0_0_1_n_n_wf none x w r h)
    (BiasRead.bias_rows_apply b shapeCasts_S128_S1x128 broadcasts_S1x128_S6400x128 r h)

/-- The same affine layer with 32 inputs. -/
theorem affine32_apply (x : FVec Ideal S6400x32 .bf16) (w : FVec Ideal S32x128 .bf16) (b : FVec Ideal S128 .f32)
    (r : Fin 6400) (h : Fin 128) :
    addf (matmul dot_S6400x32_S32x128_S6400x128_1_0_0_1_n_n none x w (constant (F := Ideal) S6400x128 .f32 0x00000000#32))
        (broadcastTo S6400x128 (shapeCast S1x128 b shapeCasts_S128_S1x128) broadcasts_S1x128_S6400x128) (ix2 r h)
      = (∑ a : Fin 32, x (ix2 r a) * w (ix2 a h)) + b (ix1 h) := by
  refine (addf_apply _ _ _).trans ?_
  exact congrArg₂ (· + ·)
    (Cert.LibMatmulNN.matmul_zero_apply dot_S6400x32_S32x128_S6400x128_1_0_0_1_n_n_wf none x w r h)
    (BiasRead.bias_rows_apply b shapeCasts_S128_S1x128 broadcasts_S1x128_S6400x128 r h)

/-- The second chunk's pooled value at node `p`, channel `o`: the sum over the 32 slots of the slot's message. The
    pooling is the middle-axis sum of the `[200, 32, 128]` view of the 6400 activation rows, whose entry `(p, k, o)` is
    row `p · 32 + k`; on that row the activation is `tanh` of the output affine layer applied to the entrywise product
    of the two hidden affine layers, and the format changes and same-shape casts in between are identities. -/
theorem pay1_apply (v1 : FVec Ideal S128x128 .bf16) (v2 : FVec Ideal S128 .f32) (v4 : FVec Ideal S32x128 .bf16) (v5 : FVec Ideal S128 .f32)
    (v7 : FVec Ideal S128x128 .bf16) (v8 : FVec Ideal S128 .f32) (v45 : FVec Ideal S6400x128 .f32) (v49 : FVec Ideal S6400x32 .f32)
    (p : Fin 200) (o : Fin 128) :
    k0_pay1 (F := Ideal) v1 v2 v4 v5 v7 v8 v45 v49 (ix2 p o)
      = ∑ k : Fin 32, Cert.Spec.message (fun a => v45 (ix2 (Cert.Spec.slotRow p k) a)) (fun b => v49 (ix2 (Cert.Spec.slotRow p k) b))
          (fun h a => v1 (ix2 a h)) (fun h => v2 (ix1 h)) (fun h b => v4 (ix2 b h)) (fun h => v5 (ix1 h))
          (fun o' h => v7 (ix2 h o')) (fun o' => v8 (ix1 o')) o := by
  unfold k0_pay1
  dsimp only
  refine (Cert.LibRank3Mid.sum_mid_apply _ 0x00000000#32 reduces_S200x32x128_S200x128 (.inl rfl) rfl p o).trans ?_
  refine Finset.sum_congr rfl fun k _ => ?_
  refine (Cert.LibRank3.shapeCast_rows_apply _ shapeCasts_S6400x128_S200x32x128 p k o (Cert.Spec.slotRow p k).isLt).trans ?_
  unfold Cert.Spec.message
  show Ideal.tanh _ = Ideal.tanh _
  refine congrArg Ideal.tanh ?_
  refine (affine128_apply _ v7 v8 (Cert.Spec.slotRow p k) o).trans ?_
  refine congrArg (· + v8 (ix1 o)) ?_
  refine Finset.sum_congr rfl fun h _ => ?_
  refine congrArg (· * v7 (ix2 h o)) ?_
  refine (mulf_apply _ _ _).trans ?_
  refine congrArg₂ (· * ·) ?_ ?_
  · refine (affine128_apply _ v1 v2 (Cert.Spec.slotRow p k) h).trans ?_
    rw [shapeCast_self]
    rfl
  · refine (affine32_apply _ v4 v5 (Cert.Spec.slotRow p k) h).trans ?_
    rw [shapeCast_self]
    rfl

/-- A weight matrix passed through a cast to its own shape is unchanged. -/
theorem pay2_eq {F : FTy → Type} [FloatOps F] (v0 : Vec F S128x128 .bf16) : k0_pay2 v0 = v0 :=
  shapeCast_self v0 shapeCasts_S128x128_S128x128

/-- The same for the `[32, 128]` weight matrix. -/
theorem pay3_eq {F : FTy → Type} [FloatOps F] (v3 : Vec F S32x128 .bf16) : k0_pay3 v3 = v3 :=
  shapeCast_self v3 shapeCasts_S32x128_S32x128

/-- The same for the output weight matrix. -/
theorem pay4_eq {F : FTy → Type} [FloatOps F] (v6 : Vec F S128x128 .bf16) : k0_pay4 v6 = v6 :=
  shapeCast_self v6 shapeCasts_S128x128_S128x128

/-- The first chunk's term is the second chunk's term at the cast weights: the two are the same sequence of
    operations. -/
theorem pay5_eq_pay1 {F : FTy → Type} [FloatOps F] (v0 : Vec F S128x128 .bf16) (v2 : Vec F S128 .f32) (v3 : Vec F S32x128 .bf16)
    (v5 : Vec F S128 .f32) (v6 : Vec F S128x128 .bf16) (v8 : Vec F S128 .f32) (v14 : Vec F S6400x128 .f32) (v18 : Vec F S6400x32 .f32) :
    k0_pay5 v0 v2 v3 v5 v6 v8 v14 v18 = k0_pay1 (k0_pay2 v0) v2 (k0_pay3 v3) v5 (k0_pay4 v6) v8 v14 v18 := rfl

/-- The first chunk's pooled value at node `p`, channel `o`: the same sum of the 32 slot messages, the weights having
    only passed through casts to their own shapes. -/
theorem pay5_apply (v0 : FVec Ideal S128x128 .bf16) (v2 : FVec Ideal S128 .f32) (v3 : FVec Ideal S32x128 .bf16) (v5 : FVec Ideal S128 .f32)
    (v6 : FVec Ideal S128x128 .bf16) (v8 : FVec Ideal S128 .f32) (v14 : FVec Ideal S6400x128 .f32) (v18 : FVec Ideal S6400x32 .f32)
    (p : Fin 200) (o : Fin 128) :
    k0_pay5 (F := Ideal) v0 v2 v3 v5 v6 v8 v14 v18 (ix2 p o)
      = ∑ k : Fin 32, Cert.Spec.message (fun a => v14 (ix2 (Cert.Spec.slotRow p k) a)) (fun b => v18 (ix2 (Cert.Spec.slotRow p k) b))
          (fun h a => v0 (ix2 a h)) (fun h => v2 (ix1 h)) (fun h b => v3 (ix2 b h)) (fun h => v5 (ix1 h))
          (fun o' h => v6 (ix2 h o')) (fun o' => v8 (ix1 o')) o := by
  rw [pay5_eq_pay1, pay2_eq, pay3_eq, pay4_eq]
  exact pay1_apply v0 v2 v3 v5 v6 v8 v14 v18 p o

end Cert.Chunk

end
-- ==== Proof.Body.lean ====
/-
  What one grid step of the kernel leaves in its output block.

  A grid step handles 400 nodes: 12800 atom rows and 12800 bond rows (32 slots per node, slot-minor), the three
  transposed weight matrices and the three bias vectors. The body works in two chunks of 200 nodes; each chunk's pooled
  result is stored into its own 200 rows of the 400-row output block, so the two stores tile the block. Row `r` of the
  block therefore holds, whichever chunk wrote it, the sum over the slots `k` of the message of row `r · 32 + k` of
  the step's atom and bond blocks: chunk `c`, node `p` of the chunk reads row `c · 6400 + p · 32 + k`, and
  `(c · 200 + p) · 32 + k` is the same number.
-/
import proofs.«175420_j43078521979616_2_alg».proof.Proof.Gen.KernelIdeal.Frame
import proofs.«175420_j43078521979616_2_alg».proof.Proof.Spec
import proofs.«175420_j43078521979616_2_alg».proof.Proof.Chunk
import Idealize.ShloMosaic.Lib.Pipeline.Value
import Idealize.ShloMosaic.Lib.Tactic
import Idealize.ShloMosaic.PureOps.Ideal

noncomputable section

namespace Cert.Body

open Cert.KernelIdeal Cert.KernelIdeal.Gen Idealize.ShloMosaic Idealize.ShloMosaic.TcCoe Idealize.SL.Sem Idealize.ShloMosaic.Tactic
open Idealize.ShloMosaic.ValueIdx

/-- Within a grid step's block of 400 nodes with 32 slots each, laid out slot-minor as 12800 rows: the row of node
    `r`, slot `k`. -/
abbrev blockRow (r : Fin 400) (k : Fin 32) : Fin 12800 := ⟨r.val * 32 + k.val, by have := r.isLt; have := k.isLt; omega⟩

/-- What one grid step leaves in its output block, as a function of the step's input blocks: entry `(r, o)` is the
    sum over the slots `k` of the message of row `r * 32 + k` of the atom and bond blocks, the weights read
    transposed (`W1 h a` is entry `(a, h)` of the staged weight block). -/
def blockOut (x0 : FVec Ideal S12800x128 .f32) (x1 : FVec Ideal S12800x32 .f32) (x2 : FVec Ideal S128x128 .bf16) (x3 : FVec Ideal S128 .f32) (x4 : FVec Ideal S32x128 .bf16) (x5 : FVec Ideal S128 .f32) (x6 : FVec Ideal S128x128 .bf16) (x7 : FVec Ideal S128 .f32) : FVec Ideal S400x128 .f32 :=
  fun y => ∑ k : Fin 32, Cert.Spec.message (fun a => x0 (ix2 (blockRow (y 0) k) a)) (fun b => x1 (ix2 (blockRow (y 0) k) b))
    (fun h a => x2 (ix2 a h)) (fun h => x3 (ix1 h)) (fun h b => x4 (ix2 b h)) (fun h => x5 (ix1 h))
    (fun o h => x6 (ix2 h o)) (fun o => x7 (ix1 o)) (y 1)

theorem message_congr {s s' : Fin 128 → EReal} {e e' : Fin 32 → EReal} (W1 : Fin 128 → Fin 128 → EReal) (b1 : Fin 128 → EReal)
    (W2 : Fin 128 → Fin 32 → EReal) (b2 : Fin 128 → EReal) (W3 : Fin 128 → Fin 128 → EReal) (b3 : Fin 128 → EReal)
    {o o' : Fin 128} (hs : s = s') (he : e = e') (ho : o = o') :
    Cert.Spec.message s e W1 b1 W2 b2 W3 b3 o = Cert.Spec.message s' e' W1 b1 W2 b2 W3 b3 o' := by
  subst hs he ho; rfl

theorem hz2 : (![0, 0] : Fin 2 → Nat) = fun _ => 0 := funext fun a => by fin_cases a <;> rfl
theorem hz1 : (![0] : Fin 1 → Nat) = fun _ => 0 := funext fun a => by fin_cases a; rfl

/-- The two stores of the body — rows 0–199 from the first chunk, rows 200–399 from the second — leave `blockOut` of
    the input blocks. -/
theorem out_eq (c : Dev nD) (i : grid0.Coords) (arg1 : Memref sig .tc .vmem S12800x128 .f32) (harg1 : arg1.IsWhole) (arg2 : Memref sig .tc .vmem S12800x32 .f32) (harg2 : arg2.IsWhole) (arg3 : Memref sig .tc .vmem S128x128 .bf16) (harg3 : arg3.IsWhole) (arg4 : Memref sig .tc .vmem S128 .f32) (harg4 : arg4.IsWhole) (arg5 : Memref sig .tc .vmem S32x128 .bf16) (harg5 : arg5.IsWhole) (arg6 : Memref sig .tc .vmem S128 .f32) (harg6 : arg6.IsWhole) (arg7 : Memref sig .tc .vmem S128x128 .bf16) (harg7 : arg7.IsWhole) (arg8 : Memref sig .tc .vmem S128 .f32) (harg8 : arg8.IsWhole) (arg9 : Memref sig .tc .vmem S400x128 .f32) (harg9 : arg9.IsWhole)
    (x0 : FVec Ideal S12800x128 .f32) (x1 : FVec Ideal S12800x32 .f32) (x2 : FVec Ideal S128x128 .bf16) (x3 : FVec Ideal S128 .f32) (x4 : FVec Ideal S32x128 .bf16) (x5 : FVec Ideal S128 .f32) (x6 : FVec Ideal S128x128 .bf16) (x7 : FVec Ideal S128 .f32) :
    out0_A_8 (F := Ideal) c i arg1 harg1 arg2 harg2 arg3 harg3 arg4 harg4 arg5 harg5 arg6 harg6 arg7 harg7 arg8 harg8 arg9 harg9 x0 x1 x2 x3 x4 x5 x6 x7 = blockOut x0 x1 x2 x3 x4 x5 x6 x7 := by
  unfold out0_A_8
  rw [View.read_writes_eq_canon _ _ _ (cover0_A_8 (F := Ideal) c i arg1 harg1 arg2 harg2 arg3 harg3 arg4 harg4 arg5 harg5 arg6 harg6 arg7 harg7 arg8 harg8 arg9 harg9 x0 x1 x2 x3 x4 x5 x6 x7)]
  funext y
  refine View.canon_apply_of_pieces (blockOut x0 x1 x2 x3 x4 x5 x6 x7) _ ?_ y (cover0_A_8 (F := Ideal) c i arg1 harg1 arg2 harg2 arg3 harg3 arg4 harg4 arg5 harg5 arg6 harg6 arg7 harg7 arg8 harg8 arg9 harg9 x0 x1 x2 x3 x4 x5 x6 x7 y)
  unfold kernelRun0_A
  dsimp only
  sl_unfold_words
  simp only [View.readAt_eq_ld, harg1.read_unread, harg2.read_unread, harg3.read_unread, harg4.read_unread, harg5.read_unread,
    harg6.read_unread, harg7.read_unread, harg8.read_unread, View.ld_unit_zero (S := S128x128) hz2, View.ld_unit_zero (S := S32x128) hz2,
    View.ld_unit_zero (S := S128) hz1, k0_pay2, k0_pay3, k0_pay4, shapeCast_self]
  intro q hq
  rcases List.mem_cons.mp hq with rfl | hq
  · intro x
    obtain ⟨p, o, rfl⟩ : ∃ (p : Fin 200) (o : Fin 128), x = ix2 p o := ⟨x 0, x 1, eq_ix2 x⟩
    refine (Cert.Chunk.pay1_apply x2 x3 x4 x5 x6 x7 _ _ p o).trans ?_
    refine Finset.sum_congr rfl fun k _ => ?_
    refine message_congr _ _ _ _ _ _ (funext fun a => ?_) (funext fun b => ?_) (Fin.ext (by show o.val = 0 + 1 * o.val; omega))
    · refine congrArg x0 (funext fun d => Fin.ext ?_)
      match d with
      | ⟨0, _⟩ => show 6400 + 1 * (p.val * 32 + k.val) = (200 + 1 * p.val) * 32 + k.val; omega
      | ⟨1, _⟩ => show 0 + 1 * a.val = a.val; omega
    · refine congrArg x1 (funext fun d => Fin.ext ?_)
      match d with
      | ⟨0, _⟩ => show 6400 + 1 * (p.val * 32 + k.val) = (200 + 1 * p.val) * 32 + k.val; omega
      | ⟨1, _⟩ => show 0 + 1 * b.val = b.val; omega
  · rcases List.mem_cons.mp hq with rfl | hq
    · intro x
      obtain ⟨p, o, rfl⟩ : ∃ (p : Fin 200) (o : Fin 128), x = ix2 p o := ⟨x 0, x 1, eq_ix2 x⟩
      refine (Cert.Chunk.pay5_apply x2 x3 x4 x5 x6 x7 _ _ p o).trans ?_
      refine Finset.sum_congr rfl fun k _ => ?_
      refine message_congr _ _ _ _ _ _ (funext fun a => ?_) (funext fun b => ?_) (Fin.ext (by show o.val = 0 + 1 * o.val; omega))
      · refine congrArg x0 (funext fun d => Fin.ext ?_)
        match d with
        | ⟨0, _⟩ => show 0 + 1 * (p.val * 32 + k.val) = (0 + 1 * p.val) * 32 + k.val; omega
        | ⟨1, _⟩ => show 0 + 1 * a.val = a.val; omega
      · refine congrArg x1 (funext fun d => Fin.ext ?_)
        match d with
        | ⟨0, _⟩ => show 0 + 1 * (p.val * 32 + k.val) = (0 + 1 * p.val) * 32 + k.val; omega
        | ⟨1, _⟩ => show 0 + 1 * b.val = b.val; omega
    · exact absurd hq List.not_mem_nil

end Cert.Body

end
-- ==== Proof.LibGroupsToRows.lean ====
/-
  Groups of rows flattened: a general layout lemma, the converse of the row-block cast. An `[a, b, d]` array viewed as
  the matrix `[n, d]` of its `n = a * b` rows keeps the row-major order, so row `p * b + q` of the matrix is row `q` of
  group `p`.
-/
import Idealize.ShloMosaic.Lib.Pipeline.Value
import Idealize.ShloMosaic.Lib.ValueIdx

namespace Cert.Layout

open Idealize.ShloMosaic Idealize.ShloMosaic.ValueIdx

/-- An `[a, b, d]` array viewed `[n, d]` (so `n = a * b`) reads, at row `p * b + q` and column `r`, the operand's entry
    `(p, q, r)`. -/
theorem shapeCast_groups_rows_apply {α : Type} {n a b d : ℕ} (x : (⟨3, ![a, b, d]⟩ : Shape).Idx → α)
    (h : (⟨3, ![a, b, d]⟩ : Shape).ShapeCasts ⟨2, ![n, d]⟩) (p : Fin a) (q : Fin b) (r : Fin d)
    (hpq : p.val * b + q.val < n) :
    shapeCast ⟨2, ![n, d]⟩ x h (ix2 ⟨p.val * b + q.val, hpq⟩ r) = x (ix3 p q r) := by
  refine shapeCast_apply x h _ _ ?_
  rw [Shape.rowMajor_val_two, Shape.rowMajor_val_three]
  rfl

end Cert.Layout
-- ==== Proof.Blocks.lean ====
/-
  From grid steps to the whole result array.

  The host first flattens the atom and bond arrays `[50000, 32, ·]` to `[1600000, ·]` rows (row `n · 32 + k` is slot `k`
  of node `n`) and transposes the three weight matrices; the narrowing of the weights is the identity over the exact
  extended reals. Grid step `t` of 125 stages rows `t · 12800 …` of the two flattened arrays — the slots of nodes
  `t · 400 … t · 400 + 399` — and the whole weight and bias arrays, and writes back rows `t · 400 …` of the result.
  So what step `t` writes back is block `t` of the pooled output `G` of the launch arguments, the 125 blocks tile the
  result array, and the array ends holding `G`.
-/
import proofs.«175420_j43078521979616_2_alg».proof.Proof.Gen.KernelIdeal.Value
import proofs.«175420_j43078521979616_2_alg».proof.Proof.Spec
import proofs.«175420_j43078521979616_2_alg».proof.Proof.Body
import proofs.«175420_j43078521979616_2_alg».proof.Proof.LibGroupsToRows
import Idealize.ShloMosaic.Lib.Pipeline.Value
import Idealize.ShloMosaic.Lib.StableHlo.Run
import Idealize.ShloMosaic.Lib.Tactic
import Idealize.ShloMosaic.PureOps.Ideal

noncomputable section

namespace Cert.Blocks

open Cert.KernelIdeal Cert.KernelIdeal.Gen Idealize.ShloMosaic Idealize.ShloMosaic.TcCoe Idealize.SL.Sem Idealize.ShloMosaic.Tactic
open Idealize.ShloMosaic.ValueIdx
open Idealize.ShloMosaic.Pipeline (Dat)

variable (m : (ℓ : Loc nD τ sig) → Buf (Elt Ideal) ℓ) (ρ : Dev nD → PrngReg)

/-! ## The arrays the region finds: the host's reshapes and transposes of the arguments -/

theorem V_v0 (c : Dev nD) : (V m c main_v0 : S1600000x128.Idx → EReal)
    = shapeCast S1600000x128 (m ((c : Thread nD τ).loc main_arg0)) shapeCasts_S50000x32x128_S1600000x128 := by
  dsimp only [Gen.V, Gen.hostOps0]; after_results; rfl

theorem V_v1 (c : Dev nD) : (V m c main_v1 : S1600000x32.Idx → EReal)
    = shapeCast S1600000x32 (m ((c : Thread nD τ).loc main_arg1)) shapeCasts_S50000x32x32_S1600000x32 := by
  dsimp only [Gen.V, Gen.hostOps0]; after_results; rfl

theorem V_v3 (c : Dev nD) : (V m c main_v3 : FVec Ideal S128x128 .bf16)
    = (truncf (F := Ideal) .bf16 (transpose S128x128 [1, 0] (m ((c : Thread nD τ).loc main_arg2) : FVec Ideal S128x128 .f32) transposes_S128x128_S128x128_1_0) bitsLt_bf16_f32 : FVec Ideal S128x128 .bf16) := by
  dsimp only [Gen.V, Gen.hostOps0]; after_results

theorem V_v5 (c : Dev nD) : (V m c main_v5 : FVec Ideal S32x128 .bf16)
    = (truncf (F := Ideal) .bf16 (transpose S32x128 [1, 0] (m ((c : Thread nD τ).loc main_arg4) : FVec Ideal S128x32 .f32) transposes_S128x32_S32x128_1_0) bitsLt_bf16_f32 : FVec Ideal S32x128 .bf16) := by
  dsimp only [Gen.V, Gen.hostOps0]; after_results

theorem V_v7 (c : Dev nD) : (V m c main_v7 : FVec Ideal S128x128 .bf16)
    = (truncf (F := Ideal) .bf16 (transpose S128x128 [1, 0] (m ((c : Thread nD τ).loc main_arg6) : FVec Ideal S128x128 .f32) transposes_S128x128_S128x128_1_0) bitsLt_bf16_f32 : FVec Ideal S128x128 .bf16) := by
  dsimp only [Gen.V, Gen.hostOps0]; after_results

/-! ## Where each window's block sits -/

/-- The windows' block indices at grid step `t`: the atom rows, the bond rows and the output move with the step along
    axis 0; the weights and biases stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (0 : Fin 2) = t.val ∧ win0_8.index t (1 : Fin 2) = 0 :=
  (by decide +kernel : ∀ t : Fin grid0.N, _)

theorem N_eq : cfg0.N = 125 := N_0

/-- Node `t * 400 + r` of the whole graph, for grid step `t` and node `r` of the step's block. -/
abbrev node (t : Fin cfg0.N) (r : Fin 400) : Fin 50000 :=
  ⟨t.val * 400 + r.val, by have := t.isLt; have := r.isLt; have := N_eq; omega⟩

/-- Row `r * 32 + k` of the step's atom block is slot `k` of node `t * 400 + r`. -/
theorem iblk0_apply (c : Dev nD) (t : Fin cfg0.N) (r : Fin 400) (k : Fin 32) (a : Fin 128) :
    iblk m c 0 t (ix2 (Cert.Body.blockRow r k) a) = m ((c : Thread nD τ).loc main_arg0) (ix3 (node t r) k a) := by
  unfold iblk
  rw [View.read_apply]
  show V m c main_v0 (((cfg0.win 0).blk t).view.emb (ix2 (Cert.Body.blockRow r k) a)) = _
  rw [V_v0]
  obtain ⟨e0, e1, -⟩ := idx_facts t
  have hrow : (node t r).val * 32 + k.val < 1600000 := by
    have := t.isLt; have := r.isLt; have := k.isLt; have := N_eq; show (t.val * 400 + r.val) * 32 + k.val < 1600000; omega
  have he : ((cfg0.win 0).blk t).view.emb (ix2 (Cert.Body.blockRow r k) a)
      = ix2 (⟨(node t r).val * 32 + k.val, hrow⟩ : Fin 1600000) a := by
    funext d; apply Fin.ext
    match d with
    | ⟨0, _⟩ => show win0_0.index t (0 : Fin 2) * 12800 + 1 * (r.val * 32 + k.val) = (t.val * 400 + r.val) * 32 + k.val; rw [e0]; omega
    | ⟨1, _⟩ => show win0_0.index t (1 : Fin 2) * 128 + 1 * a.val = a.val; rw [e1]; omega
  rw [he]
  exact Cert.Layout.shapeCast_groups_rows_apply (m ((c : Thread nD τ).loc main_arg0)) shapeCasts_S50000x32x128_S1600000x128 (node t r) k a hrow

/-- Row `r * 32 + k` of the step's bond block is slot `k` of node `t * 400 + r`. -/
theorem iblk1_apply (c : Dev nD) (t : Fin cfg0.N) (r : Fin 400) (k : Fin 32) (b : Fin 32) :
    iblk m c 1 t (ix2 (Cert.Body.blockRow r k) b) = m ((c : Thread nD τ).loc main_arg1) (ix3 (node t r) k b) := by
  unfold iblk
  rw [View.read_apply]
  show V m c main_v1 (((cfg0.win 1).blk t).view.emb (ix2 (Cert.Body.blockRow r k) b)) = _
  rw [V_v1]
  obtain ⟨-, -, e0, e1, -⟩ := idx_facts t
  have hrow : (node t r).val * 32 + k.val < 1600000 := by
    have := t.isLt; have := r.isLt; have := k.isLt; have := N_eq; show (t.val * 400 + r.val) * 32 + k.val < 1600000; omega
  have he : ((cfg0.win 1).blk t).view.emb (ix2 (Cert.Body.blockRow r k) b)
      = ix2 (⟨(node t r).val * 32 + k.val, hrow⟩ : Fin 1600000) b := by
    funext d; apply Fin.ext
    match d with
    | ⟨0, _⟩ => show win0_1.index t (0 : Fin 2) * 12800 + 1 * (r.val * 32 + k.val) = (t.val * 400 + r.val) * 32 + k.val; rw [e0]; omega
    | ⟨1, _⟩ => show win0_1.index t (1 : Fin 2) * 32 + 1 * b.val = b.val; rw [e1]; omega
  rw [he]
  exact Cert.Layout.shapeCast_groups_rows_apply (m ((c : Thread nD τ).loc main_arg1)) shapeCasts_S50000x32x32_S1600000x32 (node t r) k b hrow

/-- The staged atom weights are the argument's transpose: entry `(a, h)` is `Wcf_w[h, a]`. -/
theorem iblk2_apply (c : Dev nD) (t : Fin cfg0.N) (a : Fin 128) (h : Fin 128) :
    iblk m c 2 t (ix2 a h) = m ((c : Thread nD τ).loc main_arg2) (ix2 h a) := by
  unfold iblk
  rw [View.read_apply]
  show V m c main_v3 (((cfg0.win 2).blk t).view.emb (ix2 a h)) = _
  rw [V_v3]
  obtain ⟨-, -, -, -, e0, e1, -⟩ := idx_facts t
  have he : ((cfg0.win 2).blk t).view.emb (ix2 a h) = ix2 a h := by
    funext d; apply Fin.ext
    match d with
    | ⟨0, _⟩ => show win0_2.index t (0 : Fin 2) * 128 + 1 * a.val = a.val; rw [e0]; omega
    | ⟨1, _⟩ => show win0_2.index t (1 : Fin 2) * 128 + 1 * h.val = h.val; rw [e1]; omega
  rw [he]
  show transpose S128x128 [1, 0] (m ((c : Thread nD τ).loc main_arg2)) transposes_S128x128_S128x128_1_0 (ix2 a h) = _
  refine transpose_apply _ _ _ (ix2 a h) (ix2 h a) fun b => ?_
  match b with
  | ⟨0, _⟩ => rfl
  | ⟨1, _⟩ => rfl

/-- The staged bond weights are the argument's transpose: entry `(b, h)` is `Wdf_w[h, b]`. -/
theorem iblk4_apply (c : Dev nD) (t : Fin cfg0.N) (b : Fin 32) (h : Fin 128) :
    iblk m c 4 t (ix2 b h) = m ((c : Thread nD τ).loc main_arg4) (ix2 h b) := by
  unfold iblk
  rw [View.read_apply]
  show V m c main_v5 (((cfg0.win 4).blk t).view.emb (ix2 b h)) = _
  rw [V_v5]
  obtain ⟨-, -, -, -, -, -, -, e0, e1, -⟩ := idx_facts t
  have he : ((cfg0.win 4).blk t).view.emb (ix2 b h) = ix2 b h := by
    funext d; apply Fin.ext
    match d with
    | ⟨0, _⟩ => show win0_4.index t (0 : Fin 2) * 32 + 1 * b.val = b.val; rw [e0]; omega
    | ⟨1, _⟩ => show win0_4.index t (1 : Fin 2) * 128 + 1 * h.val = h.val; rw [e1]; omega
  rw [he]
  show transpose S32x128 [1, 0] (m ((c : Thread nD τ).loc main_arg4)) transposes_S128x32_S32x128_1_0 (ix2 b h) = _
  refine transpose_apply _ _ _ (ix2 b h) (ix2 h b) fun d => ?_
  match d with
  | ⟨0, _⟩ => rfl
  | ⟨1, _⟩ => rfl

/-- The staged output weights are the argument's transpose: entry `(h, o)` is `Wfc_w[o, h]`. -/
theorem iblk6_apply (c : Dev nD) (t : Fin cfg0.N) (h : Fin 128) (o : Fin 128) :
    iblk m c 6 t (ix2 h o) = m ((c : Thread nD τ).loc main_arg6) (ix2 o h) := by
  unfold iblk
  rw [View.read_apply]
  show V m c main_v7 (((cfg0.win 6).blk t).view.emb (ix2 h o)) = _
  rw [V_v7]
  obtain ⟨-, -, -, -, -, -, -, -, -, -, e0, e1, -⟩ := idx_facts t
  have he : ((cfg0.win 6).blk t).view.emb (ix2 h o) = ix2 h o := by
    funext d; apply Fin.ext
    match d with
    | ⟨0, _⟩ => show win0_6.index t (0 : Fin 2) * 128 + 1 * h.val = h.val; rw [e0]; omega
    | ⟨1, _⟩ => show win0_6.index t (1 : Fin 2) * 128 + 1 * o.val = o.val; rw [e1]; omega
  rw [he]
  show transpose S128x128 [1, 0] (m ((c : Thread nD τ).loc main_arg6)) transposes_S128x128_S128x128_1_0 (ix2 h o) = _
  refine transpose_apply _ _ _ (ix2 h o) (ix2 o h) fun d => ?_
  match d with
  | ⟨0, _⟩ => rfl
  | ⟨1, _⟩ => rfl

/-- The staged bias vectors are the arguments themselves. -/
theorem iblk3_apply (c : Dev nD) (t : Fin cfg0.N) (h : Fin 128) :
    iblk m c 3 t (ix1 h) = m ((c : Thread nD τ).loc main_arg3) (ix1 h) := by
  unfold iblk
  rw [View.read_apply]
  show V m c main_arg3 (((cfg0.win 3).blk t).view.emb (ix1 h)) = _
  rw [V_main_arg3]
  obtain ⟨-, -, -, -, -, -, e0, -⟩ := idx_facts t
  refine congrArg (m ((c : Thread nD τ).loc main_arg3)) (funext fun d => Fin.ext ?_)
  match d with
  | ⟨0, _⟩ => show win0_3.index t (0 : Fin 1) * 128 + 1 * h.val = h.val; rw [e0]; omega

theorem iblk5_apply (c : Dev nD) (t : Fin cfg0.N) (h : Fin 128) :
    iblk m c 5 t (ix1 h) = m ((c : Thread nD τ).loc main_arg5) (ix1 h) := by
  unfold iblk
  rw [View.read_apply]
  show V m c main_arg5 (((cfg0.win 5).blk t).view.emb (ix1 h)) = _
  rw [V_main_arg5]
  obtain ⟨-, -, -, -, -, -, -, -, -, e0, -⟩ := idx_facts t
  refine congrArg (m ((c : Thread nD τ).loc main_arg5)) (funext fun d => Fin.ext ?_)
  match d with
  | ⟨0, _⟩ => show win0_5.index t (0 : Fin 1) * 128 + 1 * h.val = h.val; rw [e0]; omega

theorem iblk7_apply (c : Dev nD) (t : Fin cfg0.N) (o : Fin 128) :
    iblk m c 7 t (ix1 o) = m ((c : Thread nD τ).loc main_arg7) (ix1 o) := by
  unfold iblk
  rw [View.read_apply]
  show V m c main_arg7 (((cfg0.win 7).blk t).view.emb (ix1 o)) = _
  rw [V_main_arg7]
  obtain ⟨-, -, -, -, -, -, -, -, -, -, -, -, e0, -⟩ := idx_facts t
  refine congrArg (m ((c : Thread nD τ).loc main_arg7)) (funext fun d => Fin.ext ?_)
  match d with
  | ⟨0, _⟩ => show win0_7.index t (0 : Fin 1) * 128 + 1 * o.val = o.val; rw [e0]; omega

/-! ## What a grid step writes back, and the whole result array -/

/-- The pooled output of the launch arguments, as contents of the result array. -/
abbrev result (c : Dev nD) : Buf (Elt Ideal) ((c : Thread nD τ).loc main_v8) :=
  Cert.Spec.G (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Grid step `t` writes back block `t` of the pooled output: row `r` of the block is node `t * 400 + r`, whose slot
    rows are rows `r * 32 + k` of the step's atom and bond blocks, and the staged weights are the transposed
    arguments. -/
theorem flushed_eq (c : Dev nD) (t : Fin cfg0.N) :
    (dats m 0 c).flushed 8 t = ((cfg0.win 8).blk t).view.read (Elt Ideal) (result m c) := by
  rw [Cert.KernelIdeal.Value.flushed8]
  unfold outsAt0
  rw [Cert.Body.out_eq]
  funext j
  obtain ⟨r, o, rfl⟩ : ∃ (r : Fin 400) (o : Fin 128), j = ix2 r o := ⟨j 0, j 1, eq_ix2 j⟩
  rw [View.read_apply]
  obtain ⟨-, -, -, -, -, -, -, -, -, -, -, -, -, e0, e1⟩ := idx_facts t
  have he : ((cfg0.win 8).blk t).view.emb (ix2 r o) = ix2 (node t r) o := by
    funext d; apply Fin.ext
    match d with
    | ⟨0, _⟩ => show win0_8.index t (0 : Fin 2) * 400 + 1 * r.val = t.val * 400 + r.val; rw [e0]; omega
    | ⟨1, _⟩ => show win0_8.index t (1 : Fin 2) * 128 + 1 * o.val = o.val; rw [e1]; omega
  show Cert.Body.blockOut (iblk m c 0 t) (iblk m c 1 t) (iblk m c 2 t) (iblk m c 3 t) (iblk m c 4 t) (iblk m c 5 t) (iblk m c 6 t) (iblk m c 7 t) (ix2 r o) = result m c (((cfg0.win 8).blk t).view.emb (ix2 r o))
  rw [he]
  show (∑ k : Fin 32, Cert.Spec.message (fun a => iblk m c 0 t (ix2 (Cert.Body.blockRow r k) a)) (fun b => iblk m c 1 t (ix2 (Cert.Body.blockRow r k) b))
      (fun h a => iblk m c 2 t (ix2 a h)) (fun h => iblk m c 3 t (ix1 h)) (fun h b => iblk m c 4 t (ix2 b h)) (fun h => iblk m c 5 t (ix1 h))
      (fun o' h => iblk m c 6 t (ix2 h o')) (fun o' => iblk m c 7 t (ix1 o')) o)
    = ∑ k : Fin 32, Cert.Spec.message (fun a => m ((c : Thread nD τ).loc main_arg0) (ix3 (node t r) k a)) (fun b => m ((c : Thread nD τ).loc main_arg1) (ix3 (node t r) k b))
      (fun h a => m ((c : Thread nD τ).loc main_arg2) (ix2 h a)) (fun h => m ((c : Thread nD τ).loc main_arg3) (ix1 h))
      (fun h b => m ((c : Thread nD τ).loc main_arg4) (ix2 h b)) (fun h => m ((c : Thread nD τ).loc main_arg5) (ix1 h))
      (fun o' h => m ((c : Thread nD τ).loc main_arg6) (ix2 o' h)) (fun o' => m ((c : Thread nD τ).loc main_arg7) (ix1 o')) o
  simp only [iblk0_apply, iblk1_apply, iblk2_apply, iblk3_apply, iblk4_apply, iblk5_apply, iblk6_apply, iblk7_apply]

/-- An index of the result array lies in step `t`'s block iff each coordinate lies in the block's range on its axis. -/
theorem mem_blk (t : Fin cfg0.N) (i : S50000x128.Idx) :
    i ∈ ((cfg0.win 8).blk t).view.set ↔ ∀ a : Fin 2, win0_8.index t a * S400x128.size a ≤ (i a).val ∧ (i a).val < win0_8.index t a * S400x128.size a + S400x128.size a := by
  show i ∈ ((View.whole main_v8).slice (win0_8.rect t)).set ↔ _
  rw [View.set_slice_whole, Rect.mem_set_unit]
  exact Iff.rfl

/-- Every node's row is written back by the step that holds it: node `n` by step `n / 400`. -/
theorem covered (i : S50000x128.Idx) : ∃ t : Fin cfg0.N, (cfg0.win 8).flush t = true ∧ i ∈ ((cfg0.win 8).blk t).view.set := by
  have hi0 : (i 0).val < 50000 := (i 0).isLt
  have hi1 : (i 1).val < 128 := (i 1).isLt
  have hN := N_eq
  let t : Fin cfg0.N := ⟨(i 0).val / 400, by rw [hN]; omega⟩
  obtain ⟨-, -, -, -, -, -, -, -, -, -, -, -, -, e0, e1⟩ := idx_facts t
  refine ⟨t, flush0_8 t, ?_⟩
  rw [mem_blk]
  intro a
  match a with
  | ⟨0, _⟩ =>
    show win0_8.index t (0 : Fin 2) * 400 ≤ (i 0).val ∧ (i 0).val < win0_8.index t (0 : Fin 2) * 400 + 400
    rw [e0]; show (i 0).val / 400 * 400 ≤ (i 0).val ∧ (i 0).val < (i 0).val / 400 * 400 + 400; omega
  | ⟨1, _⟩ =>
    show win0_8.index t (1 : Fin 2) * 128 ≤ (i 1).val ∧ (i 1).val < win0_8.index t (1 : Fin 2) * 128 + 128
    rw [e1]; omega

/-- So the result array ends holding the pooled output of the launch arguments. -/
theorem final (c : Dev nD) : (dats m 0 c).arrAt 8 cfg0.N = result m c :=
  (dats m 0 c).arrAt_eq_of_cover 8 (result m c) (fun t _ => flushed_eq m c t) covered

/-- The kernel's run, read: the result array at the pooled output, the arguments unchanged. -/
theorem run : θ_run defs (onTc (τ := τ) (main (F := Ideal))) ⟨m, fun _ => 0, ρ⟩ fun r => ∀ c : Dev nD,
      r.2.mem ((c : Thread nD τ).loc main_v8) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Cert.KernelIdeal.Value.run_blocks m ρ)

end Cert.Blocks

end
-- ==== Proof.RefSpec.lean ====
/-
  The reference program computes the shared specification `Cert.Spec.G`.

  The reference is read one stage at a time. At slot `(n, k)` and hidden unit `h` its first two stages are the affine
  maps `u h = (∑ a, s a · W1 h a) + b1 h` and `w h = (∑ b, e b · W2 h b) + b2 h` of the slot's atom row `s` and bond
  row `e`; the next multiplies them entrywise; the next is the affine map `o ↦ (∑ h, (u h · w h) · W3 o h) + b3 o`,
  followed by `tanh`; the last sums the 32 slots of a node starting from zero. Each stage is an equation between the
  same sums and products, so the only work is to identify the index at which each operand is read.
-/
import proofs.«175420_j43078521979616_2_alg».proof.Proof.Gen.ReferenceIdeal.Read
import proofs.«175420_j43078521979616_2_alg».proof.Proof.Spec
noncomputable section
namespace Cert.RefSpec
open Cert.ReferenceIdeal Cert.ReferenceIdeal.Read Idealize.ShloMosaic Idealize.ShloMosaic.ValueIdx

/-- The first affine map at slot `(n, k)`, hidden unit `h`: `(∑ a, s a · W1 h a) + b1 h` with `s = x0[n, k, :]`. -/
theorem atom_affine (x0 : FVec Ideal S50000x32x128 .f32) (x2 : FVec Ideal S128x128 .f32) (x3 : FVec Ideal S128 .f32)
    (n : Fin 50000) (k : Fin 32) (h : Fin 128) :
    val_main_v3 (F := Ideal) x0 x2 x3 (ix3 n k h)
      = (∑ a : Fin 128, x0 (ix3 n k a) * x2 (ix2 h a)) + x3 (ix1 h) := by
  rw [val_main_v3_apply, Ideal.addf_def, val_main_v0_apply, val_main_v2_apply, val_main_v1_apply]
  have el : ∀ a : Fin 128, lidx_main_v0 (ix3 n k h) a = ix3 n k a := fun a => funext fun d => Fin.ext (by
    match d with | ⟨0, _⟩ => rfl | ⟨1, _⟩ => rfl | ⟨2, _⟩ => rfl)
  have er : ∀ a : Fin 128, ridx_main_v0 (ix3 n k h) a = ix2 h a := fun a => funext fun d => Fin.ext (by
    match d with | ⟨0, _⟩ => rfl | ⟨1, _⟩ => rfl)
  have eb : idx_main_v1 (idx_main_v2 (ix3 n k h)) = ix1 h := funext fun d => Fin.ext (by
    match d with | ⟨0, _⟩ => rfl)
  rw [eb]
  refine congrArg (· + x3 (ix1 h)) (Finset.sum_congr rfl fun a _ => ?_)
  rw [el a, er a]

/-- The second affine map at slot `(n, k)`, hidden unit `h`: `(∑ b, e b · W2 h b) + b2 h` with `e = x1[n, k, :]`. -/
theorem bond_affine (x1 : FVec Ideal S50000x32x32 .f32) (x4 : FVec Ideal S128x32 .f32) (x5 : FVec Ideal S128 .f32)
    (n : Fin 50000) (k : Fin 32) (h : Fin 128) :
    val_main_v7 (F := Ideal) x1 x4 x5 (ix3 n k h)
      = (∑ b : Fin 32, x1 (ix3 n k b) * x4 (ix2 h b)) + x5 (ix1 h) := by
  rw [val_main_v7_apply, Ideal.addf_def, val_main_v4_apply, val_main_v6_apply, val_main_v5_apply]
  have el : ∀ b : Fin 32, lidx_main_v4 (ix3 n k h) b = ix3 n k b := fun b => funext fun d => Fin.ext (by
    match d with | ⟨0, _⟩ => rfl | ⟨1, _⟩ => rfl | ⟨2, _⟩ => rfl)
  have er : ∀ b : Fin 32, ridx_main_v4 (ix3 n k h) b = ix2 h b := fun b => funext fun d => Fin.ext (by
    match d with | ⟨0, _⟩ => rfl | ⟨1, _⟩ => rfl)
  have eb : idx_main_v5 (idx_main_v6 (ix3 n k h)) = ix1 h := funext fun d => Fin.ext (by
    match d with | ⟨0, _⟩ => rfl)
  rw [eb]
  refine congrArg (· + x5 (ix1 h)) (Finset.sum_congr rfl fun b _ => ?_)
  rw [el b, er b]

/-- The slot's value before `tanh` at output channel `o`: `(∑ h, (u h · w h) · W3 o h) + b3 o`. -/
theorem out_affine (x0 : FVec Ideal S50000x32x128 .f32) (x1 : FVec Ideal S50000x32x32 .f32) (x2 : FVec Ideal S128x128 .f32)
    (x3 : FVec Ideal S128 .f32) (x4 : FVec Ideal S128x32 .f32) (x5 : FVec Ideal S128 .f32) (x6 : FVec Ideal S128x128 .f32)
    (x7 : FVec Ideal S128 .f32) (n : Fin 50000) (k : Fin 32) (o : Fin 128) :
    val_main_v12 (F := Ideal) x0 x1 x2 x3 x4 x5 x6 x7 (ix3 n k o)
      = (∑ h : Fin 128, (((∑ a : Fin 128, x0 (ix3 n k a) * x2 (ix2 h a)) + x3 (ix1 h))
            * ((∑ b : Fin 32, x1 (ix3 n k b) * x4 (ix2 h b)) + x5 (ix1 h))) * x6 (ix2 o h)) + x7 (ix1 o) := by
  rw [val_main_v12_apply, Ideal.addf_def, val_main_v9_apply, val_main_v11_apply, val_main_v10_apply]
  have el : ∀ h : Fin 128, lidx_main_v9 (ix3 n k o) h = ix3 n k h := fun h => funext fun d => Fin.ext (by
    match d with | ⟨0, _⟩ => rfl | ⟨1, _⟩ => rfl | ⟨2, _⟩ => rfl)
  have er : ∀ h : Fin 128, ridx_main_v9 (ix3 n k o) h = ix2 o h := fun h => funext fun d => Fin.ext (by
    match d with | ⟨0, _⟩ => rfl | ⟨1, _⟩ => rfl)
  have eb : idx_main_v10 (idx_main_v11 (ix3 n k o)) = ix1 o := funext fun d => Fin.ext (by
    match d with | ⟨0, _⟩ => rfl)
  rw [eb]
  refine congrArg (· + x7 (ix1 o)) (Finset.sum_congr rfl fun h _ => ?_)
  rw [el h, er h, val_main_v8_apply, Ideal.mulf_def, atom_affine, bond_affine]

/-- The reference's result is the pooled output `G`: the sum, over a node's 32 slots, of `tanh` of the slot's value. -/
theorem reference_eq (x0 : FVec Ideal S50000x32x128 .f32) (x1 : FVec Ideal S50000x32x32 .f32) (x2 : FVec Ideal S128x128 .f32)
    (x3 : FVec Ideal S128 .f32) (x4 : FVec Ideal S128x32 .f32) (x5 : FVec Ideal S128 .f32) (x6 : FVec Ideal S128x128 .f32)
    (x7 : FVec Ideal S128 .f32) :
    val_main_v14 (F := Ideal) x0 x1 x2 x3 x4 x5 x6 x7 = Cert.Spec.G x0 x1 x2 x3 x4 x5 x6 x7 := by
  funext j
  obtain ⟨n, o, rfl⟩ : ∃ (n : Fin 50000) (o : Fin 128), j = ix2 n o := ⟨j 0, j 1, eq_ix2 j⟩
  rw [val_main_v14_apply, val_main_cst_apply, Ideal.ofBits_def, Ideal.ofBits_zero_f32, zero_add]
  unfold Cert.Spec.G Cert.Spec.message
  refine Finset.sum_congr rfl fun k _ => ?_
  have ei : idx_main_v14 (ix2 n o) k = ix3 n k o := funext fun d => Fin.ext (by
    match d with | ⟨0, _⟩ => rfl | ⟨1, _⟩ => rfl | ⟨2, _⟩ => rfl)
  rw [ei, val_main_v13_apply, Ideal.hostUnary_tanh_def, out_affine]

end Cert.RefSpec
end
-- ==== Proof.lean ====
/-
  The kernel and its reference compute the same pooled message-passing layer, read over the exact extended reals.

  For node `n` and output channel `o` both programs return the sum, over the node's 32 neighbour slots `k`, of
  `tanh((∑ h, u h · w h · Wfc_w[o, h]) + Wfc_b[o])`, where `u h = (∑ a, src_h[n, k, a] · Wcf_w[h, a]) + Wcf_b[h]` and
  `w h = (∑ b, he[n, k, b] · Wdf_w[h, b]) + Wdf_b[h]` (`Cert.Spec.G`). The reference does so with three contractions
  over the whole `[50000, 32, ·]` arrays and one sum over the slot axis (`Cert.RefSpec.reference_eq`). The kernel flattens
  nodes and slots into rows, transposes the weights, and walks the rows in 125 grid steps of 400 nodes, each step in
  two chunks of 200 nodes: plain matrix products into zero accumulators, the bias rows, `tanh`, and a sum over the slot
  axis of the `[200, 32, 128]` view of a chunk (`Cert.Chunk`, `Cert.Body`); the 125 written-back blocks tile the result
  array (`Cert.Blocks.run`). The narrowings to a shorter float format are identities over the extended reals, and the
  two sides are the same sums, products and `tanh` of the same operands, so no finiteness of the inputs is used.
  The idealized kernel is the kernel's own text (no rewrite was applied), so `preserves` is trivial.
-/
import proofs.«175420_j43078521979616_2_alg».proof.Defs
import proofs.«175420_j43078521979616_2_alg».proof.Proof.Gen.Kernel
import proofs.«175420_j43078521979616_2_alg».proof.Proof.Gen.Kernel.Skeleton
import proofs.«175420_j43078521979616_2_alg».proof.Proof.Gen.Kernel.Launch
import proofs.«175420_j43078521979616_2_alg».proof.Proof.Gen.Kernel.Points
import proofs.«175420_j43078521979616_2_alg».proof.Proof.Gen.Kernel.Frame
import proofs.«175420_j43078521979616_2_alg».proof.Proof.Gen.KernelIdeal
import proofs.«175420_j43078521979616_2_alg».proof.Proof.Gen.KernelIdeal.Skeleton
import proofs.«175420_j43078521979616_2_alg».proof.Proof.Gen.KernelIdeal.Launch
import proofs.«175420_j43078521979616_2_alg».proof.Proof.Gen.KernelIdeal.Points
import proofs.«175420_j43078521979616_2_alg».proof.Proof.Gen.KernelIdeal.Frame
import proofs.«175420_j43078521979616_2_alg».proof.Proof.Gen.ReferenceIdeal
import proofs.«175420_j43078521979616_2_alg».proof.Proof.Gen.KernelIdeal.Value
import proofs.«175420_j43078521979616_2_alg».proof.Proof.Gen.ReferenceIdeal.Run
import proofs.«175420_j43078521979616_2_alg».proof.Proof.Gen.ReferenceIdeal.Read
import proofs.«175420_j43078521979616_2_alg».proof.Proof.Gen.Pre_finite_inputs
import proofs.«175420_j43078521979616_2_alg».proof.Proof.Blocks
import proofs.«175420_j43078521979616_2_alg».proof.Proof.RefSpec
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ

theorem frame_ki : Cert.frame_KernelIdeal := fun m ρ _ => Cert.KernelIdeal.Gen.frame m ρ

/-- The reference is a straight line of host operations: its run ends with the arguments as they were. -/
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with the result array at the pooled output `G` of arguments that agree. -/
theorem algebraic : Cert.algebraic_KernelIdeal_ReferenceIdeal := by
  intro m ρ m' ρ' _ hagree
  refine ⟨fun c => Cert.Blocks.result m c, Cert.Blocks.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.RefSpec.reference_eq, (hagree c).1, (hagree c).2.1, (hagree c).2.2.1,
    (hagree c).2.2.2.1, (hagree c).2.2.2.2.1, (hagree c).2.2.2.2.2.1, (hagree c).2.2.2.2.2.2.1, (hagree c).2.2.2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
